-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S5000x64 : Shape := ⟨2, ![5000, 64]⟩
abbrev S256x64 : Shape := ⟨2, ![256, 64]⟩
abbrev S100000x1 : Shape := ⟨2, ![100000, 1]⟩

abbrev nBuf : Space → Nat
  | .hbm => 51
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S1x64, .f32⟩
  | .hbm, ⟨29, _⟩ => ⟨S1x64, .f32⟩
  | .hbm, ⟨30, _⟩ => ⟨S100000x64, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000x64, .f32⟩
  | .hbm, ⟨40, _⟩ => ⟨S_, .f32⟩
  | .hbm, ⟨41, _⟩ => ⟨S100000x64, .f32⟩
  | .hbm, ⟨42, _⟩ => ⟨S1200000x1, .i32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S100000x64, .f32⟩
  | .hbm, ⟨47, _⟩ => ⟨S_, .f32⟩
  | .hbm, ⟨48, _⟩ => ⟨S256x64, .f32⟩
  | .hbm, ⟨49, _⟩ => ⟨S100000x1, .i32⟩
  | .hbm, ⟨50, _⟩ => ⟨S256x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S256x64 : S_.BroadcastsInDim S256x64 (![] : Fin 0 → Fin S256x64.rank)
  bcast_S100000_S100000x1_0 : S100000.BroadcastsInDim S100000x1 (![0] : Fin 1 → Fin S100000x1.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S256x64 : Shape := ⟨2, ![256, 64]⟩
abbrev S100000x1 : Shape := ⟨2, ![100000, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1200000x64, .f32⟩
  | .hbm, ⟨52, _⟩ => ⟨S_, .f32⟩
  | .hbm, ⟨53, _⟩ => ⟨S100000x64, .f32⟩
  | .hbm, ⟨54, _⟩ => ⟨S1200000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S256x64, .f32⟩
  | .hbm, ⟨70, _⟩ => ⟨S100000x1, .i32⟩
  | .hbm, ⟨71, _⟩ => ⟨S256x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call2_cst : Ref sig .tc := ⟨.hbm, 61, rfl⟩
abbrev main_call2_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf

class Facts : Prop extends Facts₀ where

variable [Facts]
-- ==== Proof.Spec.lean ====
/-
  One graph-isomorphism layer, index by index, on the extended reals.

  A node's features are added to the sum of its neighbours' features (the aggregate is an operand here: how it
  is summed is the same operation in both programs and is never opened), multiplied by a 64×64 matrix, shifted
  by a bias row and clipped below at zero; the 64 hidden values are multiplied by a second matrix and shifted by
  a second bias row. The first layer clips its result below at zero once more, the second does not.

  The zero that a clip compares with is kept as the float word it is printed as: the same word stands on both
  sides of every equation, so its value is never needed.
-/
import Idealize.ShloMosaic.PureOps.Ideal.Laws
import Idealize.ShloMosaic.Lib.ValueIdx

noncomputable section

namespace Cert.Gin

open Idealize.ShloMosaic Idealize.ShloMosaic.ValueIdx

/-- The float word of `0.0`, read as an extended real. -/
abbrev zw : EReal := Ideal.ofBits .f32 0x00000000#32

/-- Node features: 100000 rows of 64. -/
abbrev Nodes := (⟨2, ![100000, 64]⟩ : Shape).Idx → EReal
/-- A weight matrix, 64 × 64. -/
abbrev Wt := (⟨2, ![64, 64]⟩ : Shape).Idx → EReal

/-- Hidden unit `k` of node `r`: `max (∑ j, (h r j + agg r j) · Wa j k + ba k) 0`. -/
def hidden (h agg : Nodes) (Wa : Wt) (ba : Fin 64 → EReal) (r : Fin 100000) (k : Fin 64) : EReal :=
  max ((∑ j : Fin 64, (h (ix2 r j) + agg (ix2 r j)) * Wa (ix2 j k)) + ba k) zw

/-- Output feature `q` of node `r` before any final clip: `∑ k, hidden r k · Wb k q + bb q`. -/
def lin (h agg : Nodes) (Wa : Wt) (ba : Fin 64 → EReal) (Wb : Wt) (bb : Fin 64 → EReal)
    (r : Fin 100000) (q : Fin 64) : EReal :=
  (∑ k : Fin 64, hidden h agg Wa ba r k * Wb (ix2 k q)) + bb q

/-- The layer without a final clip, as a whole array. -/
def layerLin (h agg : Nodes) (Wa : Wt) (ba : Fin 64 → EReal) (Wb : Wt) (bb : Fin 64 → EReal) : Nodes :=
  fun i => lin h agg Wa ba Wb bb (i 0) (i 1)

/-- The layer clipped below at zero, as a whole array. -/
def layerRelu (h agg : Nodes) (Wa : Wt) (ba : Fin 64 → EReal) (Wb : Wt) (bb : Fin 64 → EReal) : Nodes :=
  fun i => max (lin h agg Wa ba Wb bb (i 0) (i 1)) zw

end Cert.Gin

end
-- ==== Proof.LibPlainDot.lean ====
/-
  A matrix product that contracts the left operand's columns with the right operand's rows, read at an output
  index: whatever record of dimension numbers spells it, once the record's operand indices are known coordinate
  by coordinate (row of the left operand = output row, column of the right operand = output column, the two
  contracted coordinates = the contraction index), the sum over the record's contraction index is the textbook
  sum over `k : Fin K` of `l (r, k) * r (k, c)`. Stated on the extended reals, where the sum is a sum in a
  commutative monoid and re-indexing along a bijection changes nothing.
-/
import Idealize.ShloMosaic.PureOps.Ideal.Laws
import Idealize.ShloMosaic.Lib.ValueIdx

noncomputable section

namespace Cert.PlainDot

open Idealize.ShloMosaic Idealize.ShloMosaic.ValueIdx

/-- The contraction of an `M×K` by `K×N` product at output index `j`, as a sum over `Fin K`. The hypotheses say
    what the record's two operand-index functions are, one coordinate each: they are what a concrete record
    gives by unfolding its lists of axes. -/
theorem sum_eq {M K N : ℕ} (d : DotDims ⟨2, ![M, K]⟩ ⟨2, ![K, N]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (lhs : (⟨2, ![M, K]⟩ : Shape).Idx → EReal) (rhs : (⟨2, ![K, N]⟩ : Shape).Idx → EReal)
    (j : (⟨2, ![M, N]⟩ : Shape).Idx) :
    ∑ q : d.contr.Idx, lhs (d.lhsIdx j q) * rhs (d.rhsIdx j q)
      = ∑ k : Fin K, lhs (ix2 ⟨(j 0).val, idx2_lt0 j⟩ k) * rhs (ix2 k ⟨(j 1).val, idx2_lt1 j⟩) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 ⟨(j 0).val, idx2_lt0 j⟩ k :=
    funext fun a => Fin.ext (by
      match a with
      | ⟨0, _⟩ => exact hl0 _ _
      | ⟨1, _⟩ => exact (hl1 _ _).trans hk)
  have er : d.rhsIdx j ((contrEquiv1 d K hr hs).symm k) = ix2 k ⟨(j 1).val, idx2_lt1 j⟩ :=
    funext fun a => Fin.ext (by
      match a with
      | ⟨0, _⟩ => exact (hr0 _ _).trans hk
      | ⟨1, _⟩ => exact hr1 _ _)
  rw [el, er]

end Cert.PlainDot

end
-- ==== Proof.KernelBlock.lean ====
/-
  What one grid point of the kernel computes, element by element.

  The body adds its block of node features to its block of aggregated neighbour features, multiplies the 5000×64
  sum by the first 64×64 matrix (a product into a zero accumulator: at the exact instance the sum over the 64
  contracted coordinates), adds the bias row to every row, clips below at zero, multiplies by the second matrix,
  adds the second bias row, and — in the first of the two calls only — clips once more. Rounding the operands of
  a product to a shorter float format changes nothing on the extended reals.
-/
import proofs.«158020_j44925357916335_1_alg».proof.Proof.Gen.KernelIdeal.Skeleton
import proofs.«158020_j44925357916335_1_alg».proof.Proof.Spec
import proofs.«158020_j44925357916335_1_alg».proof.Proof.LibPlainDot
import Idealize.ShloMosaic.Lib.ValueLayout
import Idealize.ShloMosaic.PureOps.Ideal.Laws

noncomputable section

namespace Cert.Gin.Block

open Cert.KernelIdeal Cert.KernelIdeal.Gen Idealize.ShloMosaic Idealize.ShloMosaic.ValueIdx

/-- A 5000×64 by 64×64 product accumulated into zeros, at row `p` and column `q`, is `∑ k, l p k · r k q`. -/
theorem matmul_zero_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  exact Cert.PlainDot.sum_eq dot_S5000x64_S64x64_S5000x64_1_0_0_1_n_n rfl rfl
    (fun j q => by
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl)
    (fun j q => dot_S5000x64_S64x64_S5000x64_1_0_0_1_n_n.lhsIdx_val_of_single rfl j q)
    (fun j q => dot_S5000x64_S64x64_S5000x64_1_0_0_1_n_n.rhsIdx_val_of_single rfl j q)
    (fun j q => by
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl)
    l r (ix2 p q)

/-- The first call's stored value at `(p, q)` of its block: the clipped layer over the rows of the blocks it loaded. -/
theorem pay0_apply (v0 v1 : Vec Ideal S5000x64 .f32) (v5 : Vec Ideal S64x64 .f32) (v8 : Vec Ideal S1x64 .f32)
    (v15 : Vec Ideal S64x64 .f32) (v18 : Vec Ideal S1x64 .f32) (p : Fin 5000) (q : Fin 64) :
    k0_pay1 v0 v1 v5 v8 v15 v18 (ix2 p q)
      = max ((∑ k : Fin 64, max ((∑ j : Fin 64, (v0 (ix2 p j) + v1 (ix2 p j)) * v5 (ix2 j k)) + v8 (ix2 (0 : Fin 1) k)) zw
                * v15 (ix2 k q)) + v18 (ix2 (0 : Fin 1) q)) zw := by
  unfold k0_pay1
  simp only [shapeCast_self, maximumf_apply, addf_apply, broadcast_apply, broadcastTo_1b_ab_apply, matmul_zero_apply,
    truncf_apply]
  rfl

/-- The second call's stored value at `(p, q)` of its block: the same layer without the last clip. -/
theorem pay1_apply (v0 v2 : Vec Ideal S5000x64 .f32) (v6 : Vec Ideal S64x64 .f32) (v9 : Vec Ideal S1x64 .f32)
    (v16 : Vec Ideal S64x64 .f32) (v19 : Vec Ideal S1x64 .f32) (p : Fin 5000) (q : Fin 64) :
    k1_pay1 v0 v2 v6 v9 v16 v19 (ix2 p q)
      = (∑ k : Fin 64, max ((∑ j : Fin 64, (v0 (ix2 p j) + v2 (ix2 p j)) * v6 (ix2 j k)) + v9 (ix2 (0 : Fin 1) k)) zw
                * v16 (ix2 k q)) + v19 (ix2 (0 : Fin 1) q) := by
  unfold k1_pay1
  simp only [shapeCast_self, maximumf_apply, addf_apply, broadcast_apply, broadcastTo_1b_ab_apply, matmul_zero_apply,
    truncf_apply]
  rfl

end Cert.Gin.Block

end
-- ==== Proof.Region0.lean ====
/-
  The first call's result array, as one function of the arrays the call finds.

  The grid has 20 points; point `t` is handed rows `5000·t … 5000·t + 4999` of the node features and of the
  aggregated neighbour features, the whole of both weight matrices and both bias rows, and writes back rows
  `5000·t … 5000·t + 4999` of the result. What it writes is the clipped layer of those rows, so every block is
  the restriction of one whole-array function, and the 20 blocks cover all 100000 rows.
-/
import proofs.«158020_j44925357916335_1_alg».proof.Proof.Gen.KernelIdeal.Frame
import proofs.«158020_j44925357916335_1_alg».proof.Proof.KernelBlock
import Idealize.ShloMosaic.Lib.Pipeline.Value

noncomputable section

namespace Cert.Gin.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the 20 points: the three row-blocked windows sit at block `(t, 0)`, the four whole-array
    windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `5000·t + p` of the array. -/
def row (t : Fin cfg0.N) (p : Fin 5000) : Fin 100000 :=
  ⟨5000 * t.val + p.val, by have h : t.val < 20 := N_0 ▸ t.isLt; have := p.isLt; omega⟩

/-- The node-feature window's block, read at `(p, j)`. -/
theorem blk0 (c : Dev nD) (t : Fin cfg0.N) (p : Fin 5000) (j : Fin 64) :
    (iblk0 V c 0 t : Vec Ideal S5000x64 .f32) (ix2 p j) = (V c main_arg0 : S100000x64.Idx → EReal) (ix2 (row t p) j) := by
  obtain ⟨e0, e1, -⟩ := idx_facts t
  show V c main_arg0 (((cfg0.win 0).blk t).view.emb (ix2 p j)) = V c main_arg0 (ix2 (row t p) j)
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * j.val = j.val; rw [e1]; omega

/-- The aggregate window's block, read at `(p, j)`. -/
theorem blk1 (c : Dev nD) (t : Fin cfg0.N) (p : Fin 5000) (j : Fin 64) :
    (iblk0 V c 1 t : Vec Ideal S5000x64 .f32) (ix2 p j) = (V c main_v13 : S100000x64.Idx → EReal) (ix2 (row t p) j) := by
  obtain ⟨-, -, e0, e1, -⟩ := idx_facts t
  show V c main_v13 (((cfg0.win 1).blk t).view.emb (ix2 p j)) = V c main_v13 (ix2 (row t p) j)
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 64 + 1 * j.val = j.val; rw [e1]; omega

/-- The first weight window's block is the whole matrix. -/
theorem blk2 (c : Dev nD) (t : Fin cfg0.N) (j k : Fin 64) :
    (iblk0 V c 2 t : Vec Ideal S64x64 .f32) (ix2 j k) = (V c main_arg3 : S64x64.Idx → EReal) (ix2 j k) := by
  obtain ⟨-, -, -, -, e0, e1, -⟩ := idx_facts t
  show V c main_arg3 (((cfg0.win 2).blk t).view.emb (ix2 j k)) = V c main_arg3 (ix2 j k)
  refine congrArg _ (funext fun a => Fin.ext ?_)
  match a with
  | ⟨0, _⟩ => show win0_2.index t (0 : Fin 2) * 64 + 1 * j.val = j.val; rw [e0]; omega
  | ⟨1, _⟩ => show win0_2.index t (1 : Fin 2) * 64 + 1 * k.val = k.val; rw [e1]; omega

/-- The first bias window's block is the whole row. -/
theorem blk3 (c : Dev nD) (t : Fin cfg0.N) (k : Fin 64) :
    (iblk0 V c 3 t : Vec Ideal S1x64 .f32) (ix2 (0 : Fin 1) k) = (V c main_v14 : S1x64.Idx → EReal) (ix2 (0 : Fin 1) k) := by
  obtain ⟨-, -, -, -, -, -, e0, e1, -⟩ := idx_facts t
  show V c main_v14 (((cfg0.win 3).blk t).view.emb (ix2 (0 : Fin 1) k)) = V c main_v14 (ix2 (0 : Fin 1) k)
  refine congrArg _ (funext fun a => Fin.ext ?_)
  match a with
  | ⟨0, _⟩ => show win0_3.index t (0 : Fin 2) * 1 + 1 * 0 = 0; rw [e0]
  | ⟨1, _⟩ => show win0_3.index t (1 : Fin 2) * 64 + 1 * k.val = k.val; rw [e1]; omega

/-- The second weight window's block is the whole matrix. -/
theorem blk4 (c : Dev nD) (t : Fin cfg0.N) (j k : Fin 64) :
    (iblk0 V c 4 t : Vec Ideal S64x64 .f32) (ix2 j k) = (V c main_arg5 : S64x64.Idx → EReal) (ix2 j k) := by
  obtain ⟨-, -, -, -, -, -, -, -, e0, e1, -⟩ := idx_facts t
  show V c main_arg5 (((cfg0.win 4).blk t).view.emb (ix2 j k)) = V c main_arg5 (ix2 j k)
  refine congrArg _ (funext fun a => Fin.ext ?_)
  match a with
  | ⟨0, _⟩ => show win0_4.index t (0 : Fin 2) * 64 + 1 * j.val = j.val; rw [e0]; omega
  | ⟨1, _⟩ => show win0_4.index t (1 : Fin 2) * 64 + 1 * k.val = k.val; rw [e1]; omega

/-- The second bias window's block is the whole row. -/
theorem blk5 (c : Dev nD) (t : Fin cfg0.N) (k : Fin 64) :
    (iblk0 V c 5 t : Vec Ideal S1x64 .f32) (ix2 (0 : Fin 1) k) = (V c main_v15 : S1x64.Idx → EReal) (ix2 (0 : Fin 1) k) := by
  obtain ⟨-, -, -, -, -, -, -, -, -, -, e0, e1, -⟩ := idx_facts t
  show V c main_v15 (((cfg0.win 5).blk t).view.emb (ix2 (0 : Fin 1) k)) = V c main_v15 (ix2 (0 : Fin 1) k)
  refine congrArg _ (funext fun a => Fin.ext ?_)
  match a with
  | ⟨0, _⟩ => show win0_5.index t (0 : Fin 2) * 1 + 1 * 0 = 0; rw [e0]
  | ⟨1, _⟩ => show win0_5.index t (1 : Fin 2) * 64 + 1 * k.val = k.val; rw [e1]; omega

/-- The whole result: the clipped layer of the arrays the call finds, the two biases read off their one row. -/
def G (c : Dev nD) : S100000x64.Idx → EReal :=
  layerRelu (V c main_arg0) (V c main_v13) (V c main_arg3) (fun k => (V c main_v14 : S1x64.Idx → EReal) (ix2 (0 : Fin 1) k))
    (V c main_arg5) (fun k => (V c main_v15 : S1x64.Idx → EReal) (ix2 (0 : Fin 1) k))

/-- What point `t` writes back is block `t` of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  refine (Block.pay0_apply _ _ _ _ _ _ p q).trans ?_
  obtain ⟨-, -, -, -, -, -, -, -, -, -, -, -, e0, e1⟩ := idx_facts t
  have e6 : ((cfg0.win 6).blk t).view.emb (ix2 p q) = ix2 (row t p) q := funext fun a => Fin.ext (by
    match a with
    | ⟨0, _⟩ => show win0_6.index t (0 : Fin 2) * 5000 + 1 * p.val = 5000 * t.val + p.val; rw [e0]; omega
    | ⟨1, _⟩ => show win0_6.index t (1 : Fin 2) * 64 + 1 * q.val = q.val; rw [e1]; omega)
  show _ = G V c (((cfg0.win 6).blk t).view.emb (ix2 p q))
  rw [e6]
  simp only [blk0, blk1, blk2, blk3, blk4, blk5]
  rfl

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every row lies in the block of the point `row / 5000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  rw [mem_blk]
  obtain ⟨-, -, -, -, -, -, -, -, -, -, -, -, e0, e1⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e1]; omega

/-- So after the call the result array holds `G`. -/
theorem final (c : Dev nD) : (dat0 V c).arrAt 6 cfg0.N = G V c :=
  (dat0 V c).arrAt_eq_of_cover 6 (G V c) (fun t _ => flushed_eq V c t) (cover)

end Cert.Gin.Region0

end
-- ==== Proof.Sums.lean ====
/-
  The two irregular sums of the network, as whole-array operations that both programs apply unchanged.

  The edge table has two rows of 1200000 node numbers: sources and destinations. A source number below zero
  counts from the end (100000 is added to it). The neighbour sum gathers, for every edge, the 64 features of its
  source node and adds them into the row of its destination node, starting from zeros. The pooled sum adds every
  node's 64 features into the row of the graph the node belongs to, starting from zeros. How the colliding
  additions are ordered is the operation's own business: it is named here and never opened.
-/
import Idealize.ShloMosaic.PureOps
import Idealize.ShloMosaic.PureOps.Ideal

noncomputable section

namespace Cert.Gin

open Idealize.ShloMosaic

abbrev SNodes : Shape := ⟨2, ![100000, 64]⟩
abbrev SEdges2 : Shape := ⟨2, ![2, 1200000]⟩
abbrev SEdges1 : Shape := ⟨2, ![1, 1200000]⟩
abbrev SEdges : Shape := ⟨1, ![1200000]⟩
abbrev SEdgesCol : Shape := ⟨2, ![1200000, 1]⟩
abbrev SEdgeRows : Shape := ⟨2, ![1200000, 64]⟩
abbrev SScalar : Shape := ⟨0, ![]⟩
abbrev SBatch : Shape := ⟨1, ![100000]⟩
abbrev SBatchCol : Shape := ⟨2, ![100000, 1]⟩
abbrev SPool : Shape := ⟨2, ![256, 64]⟩

/-- One whole row of 64 features per index: the gather's dimension numbers. -/
def gatherRows : GatherDims SNodes SEdgesCol SEdgeRows where
  offsetDims := [1]
  collapsedSliceDims := [0]
  operandBatchingDims := []
  startIndicesBatchingDims := []
  startIndexMap := [0]
  indexVectorDim := 1
  sliceSizes := ![1, 64]
  wf := by decide

/-- One whole row of 64 features added per index, into the node array. -/
def scatterRows : ScatterDims SNodes SEdgesCol SEdgeRows where
  updateWindowDims := [1]
  insertedWindowDims := [0]
  scatterDimsToOperandDims := [0]
  indexVectorDim := 1
  wf := by decide

/-- One whole row of 64 features added per node, into the 256 graph rows. -/
def scatterPool : ScatterDims SPool SBatchCol SNodes where
  updateWindowDims := [1]
  insertedWindowDims := [0]
  scatterDimsToOperandDims := [0]
  indexVectorDim := 1
  wf := by decide

/-- The source row of the edge table. -/
def srcRow (e : IVec SEdges2 32) : IVec SEdges 32 :=
  shapeCast _ (extractStridedSlice SEdges1 ![0, 0] e (by decide)) (by decide)

/-- The destination row of the edge table. -/
def dstRow (e : IVec SEdges2 32) : IVec SEdges 32 :=
  shapeCast _ (extractStridedSlice SEdges1 ![1, 0] e (by decide)) (by decide)

/-- Source numbers with the negative ones counted from the end. -/
def wrapped (s : IVec SEdges 32) : IVec SEdges 32 :=
  select (cmpi .slt s (broadcastInDim SEdges ![] (by decide) (constantI SScalar 32 0#32)))
    (addi s (broadcastInDim SEdges ![] (by decide) (constantI SScalar 32 100000#32))) s

/-- The neighbour sum of `x` along the edges from `src` to `dst`. -/
def neighbourSum (x : FVec Ideal SNodes .f32) (src dst : IVec SEdges 32) : FVec Ideal SNodes .f32 :=
  Host.scatterAdd scatterRows (broadcastInDim SNodes ![] (by decide) (constant SScalar .f32 0x00000000#32))
    (broadcastInDim SEdgesCol ![0] (by decide) dst)
    (Host.gather gatherRows x (broadcastInDim SEdgesCol ![0] (by decide) (wrapped src)))

/-- The pooled sum of `h` over the graphs `batch` names. -/
def pooled (h : FVec Ideal SNodes .f32) (batch : IVec SBatch 32) : FVec Ideal SPool .f32 :=
  Host.scatterAdd scatterPool (broadcastInDim SPool ![] (by decide) (constant SScalar .f32 0x00000000#32))
    (broadcastInDim SBatchCol ![0] (by decide) batch) h

end Cert.Gin

end
-- ==== Proof.Network.lean ====
/-
  The whole network as one function of its eleven arguments: two graph-isomorphism layers and a pooled sum.

  The first layer takes the node features and their neighbour sum and is clipped below at zero; the second takes
  the first layer's result and ITS neighbour sum along the same edges and is not clipped; the pooled result adds
  the second layer's rows graph by graph. Each bias is a vector of 64 numbers.
-/
import proofs.«158020_j44925357916335_1_alg».proof.Proof.Spec
import proofs.«158020_j44925357916335_1_alg».proof.Proof.Sums

noncomputable section

namespace Cert.Gin

open Idealize.ShloMosaic Idealize.ShloMosaic.ValueIdx

/-- A bias vector as a function of the feature number. -/
abbrev biasOf (b : (⟨1, ![64]⟩ : Shape).Idx → EReal) : Fin 64 → EReal := fun k => b (ix1 k)

/-- The first layer's result. -/
def hiddenNodes (x : Nodes) (e : IVec SEdges2 32) (W1a : Wt) (b1a : (⟨1, ![64]⟩ : Shape).Idx → EReal) (W1b : Wt)
    (b1b : (⟨1, ![64]⟩ : Shape).Idx → EReal) : Nodes :=
  layerRelu x (neighbourSum x (srcRow e) (dstRow e)) W1a (biasOf b1a) W1b (biasOf b1b)

/-- The second layer's result: the network's node output. -/
def nodeOut (x : Nodes) (e : IVec SEdges2 32) (W1a : Wt) (b1a : (⟨1, ![64]⟩ : Shape).Idx → EReal) (W1b : Wt)
    (b1b : (⟨1, ![64]⟩ : Shape).Idx → EReal) (W2a : Wt) (b2a : (⟨1, ![64]⟩ : Shape).Idx → EReal) (W2b : Wt)
    (b2b : (⟨1, ![64]⟩ : Shape).Idx → EReal) : Nodes :=
  layerLin (hiddenNodes x e W1a b1a W1b b1b)
    (neighbourSum (hiddenNodes x e W1a b1a W1b b1b) (srcRow e) (dstRow e)) W2a (biasOf b2a) W2b (biasOf b2b)

/-- The pooled output: the node output added up graph by graph. -/
def poolOut (x : Nodes) (e : IVec SEdges2 32) (batch : IVec SBatch 32) (W1a : Wt) (b1a : (⟨1, ![64]⟩ : Shape).Idx → EReal)
    (W1b : Wt) (b1b : (⟨1, ![64]⟩ : Shape).Idx → EReal) (W2a : Wt) (b2a : (⟨1, ![64]⟩ : Shape).Idx → EReal) (W2b : Wt)
    (b2b : (⟨1, ![64]⟩ : Shape).Idx → EReal) : (⟨2, ![256, 64]⟩ : Shape).Idx → EReal :=
  pooled (nodeOut x e W1a b1a W1b b1b W2a b2a W2b b2b) batch

end Cert.Gin

end
-- ==== Proof.Fold1.lean ====
/-
  The buffers between the launch and the second stretch of host operations.

  Before the first call the host cuts the edge table into its source and destination rows, forms the neighbour sum
  of the node features and reshapes the two bias vectors of the first layer into rows. The call then leaves the
  clipped first layer in its result array and every other buffer as it found it. Read back to the launch memory,
  the result array holds the network's hidden nodes, and each buffer the later stretches read holds the argument,
  or the row of the edge table, it was made from.
-/
import proofs.«158020_j44925357916335_1_alg».proof.Proof.Gen.KernelIdeal.Frame
import proofs.«158020_j44925357916335_1_alg».proof.Proof.Region0
import proofs.«158020_j44925357916335_1_alg».proof.Proof.Network
import Idealize.ShloMosaic.Lib.StableHlo.Run
import Idealize.ShloMosaic.Lib.ValueLayout

noncomputable section

namespace Cert.Gin.Fold

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## After the first stretch of host operations -/

theorem W1_arg0 (c : Dev nD) : W1 m ρ c (Proc.devRef .tc main_arg0) = m ((c : Thread nD τ).loc main_arg0) := by
  dsimp only [W1, hostOps0]; after_results <;> rfl
theorem W1_arg2 (c : Dev nD) : W1 m ρ c (Proc.devRef .tc main_arg2) = m ((c : Thread nD τ).loc main_arg2) := by
  dsimp only [W1, hostOps0]; after_results <;> rfl
theorem W1_arg3 (c : Dev nD) : W1 m ρ c (Proc.devRef .tc main_arg3) = m ((c : Thread nD τ).loc main_arg3) := by
  dsimp only [W1, hostOps0]; after_results <;> rfl
theorem W1_arg5 (c : Dev nD) : W1 m ρ c (Proc.devRef .tc main_arg5) = m ((c : Thread nD τ).loc main_arg5) := by
  dsimp only [W1, hostOps0]; after_results <;> rfl
theorem W1_arg7 (c : Dev nD) : W1 m ρ c (Proc.devRef .tc main_arg7) = m ((c : Thread nD τ).loc main_arg7) := by
  dsimp only [W1, hostOps0]; after_results <;> rfl
theorem W1_arg8 (c : Dev nD) : W1 m ρ c (Proc.devRef .tc main_arg8) = m ((c : Thread nD τ).loc main_arg8) := by
  dsimp only [W1, hostOps0]; after_results <;> rfl
theorem W1_arg9 (c : Dev nD) : W1 m ρ c (Proc.devRef .tc main_arg9) = m ((c : Thread nD τ).loc main_arg9) := by
  dsimp only [W1, hostOps0]; after_results <;> rfl
theorem W1_arg10 (c : Dev nD) : W1 m ρ c (Proc.devRef .tc main_arg10) = m ((c : Thread nD τ).loc main_arg10) := by
  dsimp only [W1, hostOps0]; after_results <;> rfl

/-- The source row of the edge table. -/
theorem W1_src (c : Dev nD) :
    (W1 m ρ c (Proc.devRef .tc main_v1) : IVec S1200000 32) = srcRow (m ((c : Thread nD τ).loc main_arg1)) := by
  dsimp only [W1, hostOps0]; after_results <;> rfl
/-- The destination row of the edge table. -/
theorem W1_dst (c : Dev nD) :
    (W1 m ρ c (Proc.devRef .tc main_v3) : IVec S1200000 32) = dstRow (m ((c : Thread nD τ).loc main_arg1)) := by
  dsimp only [W1, hostOps0]; after_results <;> rfl
/-- The neighbour sum of the node features. -/
theorem W1_agg (c : Dev nD) :
    (W1 m ρ c (Proc.devRef .tc main_v13) : FVec Ideal S100000x64 .f32)
      = neighbourSum (m ((c : Thread nD τ).loc main_arg0)) (srcRow (m ((c : Thread nD τ).loc main_arg1)))
          (dstRow (m ((c : Thread nD τ).loc main_arg1))) := by
  dsimp only [W1, hostOps0]; after_results <;> rfl
/-- The first bias vector as a row. -/
theorem W1_b1a (c : Dev nD) :
    (W1 m ρ c (Proc.devRef .tc main_v14) : FVec Ideal S1x64 .f32)
      = shapeCast S1x64 (m ((c : Thread nD τ).loc main_arg4)) shapeCasts_S64_S1x64 := by
  dsimp only [W1, hostOps0]; after_results <;> rfl
/-- The second bias vector as a row. -/
theorem W1_b1b (c : Dev nD) :
    (W1 m ρ c (Proc.devRef .tc main_v15) : FVec Ideal S1x64 .f32)
      = shapeCast S1x64 (m ((c : Thread nD τ).loc main_arg6)) shapeCasts_S64_S1x64 := by
  dsimp only [W1, hostOps0]; after_results <;> rfl

/-- A bias vector reshaped to one row reads, at `(0, k)`, the vector at `k`. -/
theorem bias_row (b : FVec Ideal S64 .f32) :
    (fun k : Fin 64 => (shapeCast S1x64 b shapeCasts_S64_S1x64 : S1x64.Idx → EReal) (ix2 (0 : Fin 1) k)) = biasOf b :=
  funext fun k => shapeCast_a_1a_apply b shapeCasts_S64_S1x64 (0 : Fin 1) k

/-! ## After the first call -/

/-- The first call's result array holds the network's hidden nodes. -/
theorem W2_hidden (c : Dev nD) :
    (W2 m ρ c (Proc.devRef .tc main_v16) : FVec Ideal S100000x64 .f32)
      = hiddenNodes (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) := by
  refine (W2_arr m ρ c 6).trans ((Region0.final (V1 m ρ) c).trans ?_)
  unfold Region0.G hiddenNodes
  dsimp only [V1]
  rw [W1_arg0, W1_agg, W1_arg3, W1_b1a, W1_arg5, W1_b1b, bias_row, bias_row]

/-- The call writes no other buffer the later stretches read. -/
theorem W2_src (c : Dev nD) :
    (W2 m ρ c (Proc.devRef .tc main_v1) : IVec S1200000 32) = srcRow (m ((c : Thread nD τ).loc main_arg1)) :=
  (W2_of_ne m ρ c main_v1 (by decide)).trans (W1_src m ρ c)
theorem W2_dst (c : Dev nD) :
    (W2 m ρ c (Proc.devRef .tc main_v3) : IVec S1200000 32) = dstRow (m ((c : Thread nD τ).loc main_arg1)) :=
  (W2_of_ne m ρ c main_v3 (by decide)).trans (W1_dst m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

end Cert.Gin.Fold

end
-- ==== Proof.Region1.lean ====
/-
  The second call's result array, as one function of the arrays the call finds.

  The grid and the windows are those of the first call: point `t` is handed rows `5000·t … 5000·t + 4999` of the
  first layer's result and of its neighbour sum, the whole of the second pair of weight matrices and bias rows,
  and writes back the same rows of the result. What it writes is the layer of those rows without a final clip;
  the 20 blocks are restrictions of one whole-array function and cover all 100000 rows.
-/
import proofs.«158020_j44925357916335_1_alg».proof.Proof.Gen.KernelIdeal.Frame
import proofs.«158020_j44925357916335_1_alg».proof.Proof.KernelBlock
import Idealize.ShloMosaic.Lib.Pipeline.Value

noncomputable section

namespace Cert.Gin.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the 20 points: the three row-blocked windows sit at block `(t, 0)`, the four whole-array
    windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block is row `5000·t + p` of the array. -/
def row (t : Fin cfg1.N) (p : Fin 5000) : Fin 100000 :=
  ⟨5000 * t.val + p.val, by have h : t.val < 20 := N_1 ▸ t.isLt; have := p.isLt; omega⟩

/-- The first window's block (the first layer's result), read at `(p, j)`. -/
theorem blk0 (c : Dev nD) (t : Fin cfg1.N) (p : Fin 5000) (j : Fin 64) :
    (iblk1 V c 0 t : Vec Ideal S5000x64 .f32) (ix2 p j) = (V c main_v16 : S100000x64.Idx → EReal) (ix2 (row t p) j) := by
  obtain ⟨e0, e1, -⟩ := idx_facts t
  show V c main_v16 (((cfg1.win 0).blk t).view.emb (ix2 p j)) = V c main_v16 (ix2 (row t p) j)
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * j.val = j.val; rw [e1]; omega

/-- The aggregate window's block, read at `(p, j)`. -/
theorem blk1 (c : Dev nD) (t : Fin cfg1.N) (p : Fin 5000) (j : Fin 64) :
    (iblk1 V c 1 t : Vec Ideal S5000x64 .f32) (ix2 p j) = (V c main_v26 : S100000x64.Idx → EReal) (ix2 (row t p) j) := by
  obtain ⟨-, -, e0, e1, -⟩ := idx_facts t
  show V c main_v26 (((cfg1.win 1).blk t).view.emb (ix2 p j)) = V c main_v26 (ix2 (row t p) j)
  refine congrArg _ (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 64 + 1 * j.val = j.val; rw [e1]; omega

/-- The first weight window's block is the whole matrix. -/
theorem blk2 (c : Dev nD) (t : Fin cfg1.N) (j k : Fin 64) :
    (iblk1 V c 2 t : Vec Ideal S64x64 .f32) (ix2 j k) = (V c main_arg7 : S64x64.Idx → EReal) (ix2 j k) := by
  obtain ⟨-, -, -, -, e0, e1, -⟩ := idx_facts t
  show V c main_arg7 (((cfg1.win 2).blk t).view.emb (ix2 j k)) = V c main_arg7 (ix2 j k)
  refine congrArg _ (funext fun a => Fin.ext ?_)
  match a with
  | ⟨0, _⟩ => show win1_2.index t (0 : Fin 2) * 64 + 1 * j.val = j.val; rw [e0]; omega
  | ⟨1, _⟩ => show win1_2.index t (1 : Fin 2) * 64 + 1 * k.val = k.val; rw [e1]; omega

/-- The first bias window's block is the whole row. -/
theorem blk3 (c : Dev nD) (t : Fin cfg1.N) (k : Fin 64) :
    (iblk1 V c 3 t : Vec Ideal S1x64 .f32) (ix2 (0 : Fin 1) k) = (V c main_v27 : S1x64.Idx → EReal) (ix2 (0 : Fin 1) k) := by
  obtain ⟨-, -, -, -, -, -, e0, e1, -⟩ := idx_facts t
  show V c main_v27 (((cfg1.win 3).blk t).view.emb (ix2 (0 : Fin 1) k)) = V c main_v27 (ix2 (0 : Fin 1) k)
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * k.val = k.val; rw [e1]; omega

/-- The second weight window's block is the whole matrix. -/
theorem blk4 (c : Dev nD) (t : Fin cfg1.N) (j k : Fin 64) :
    (iblk1 V c 4 t : Vec Ideal S64x64 .f32) (ix2 j k) = (V c main_arg9 : S64x64.Idx → EReal) (ix2 j k) := by
  obtain ⟨-, -, -, -, -, -, -, -, e0, e1, -⟩ := idx_facts t
  show V c main_arg9 (((cfg1.win 4).blk t).view.emb (ix2 j k)) = V c main_arg9 (ix2 j k)
  refine congrArg _ (funext fun a => Fin.ext ?_)
  match a with
  | ⟨0, _⟩ => show win1_4.index t (0 : Fin 2) * 64 + 1 * j.val = j.val; rw [e0]; omega
  | ⟨1, _⟩ => show win1_4.index t (1 : Fin 2) * 64 + 1 * k.val = k.val; rw [e1]; omega

/-- The second bias window's block is the whole row. -/
theorem blk5 (c : Dev nD) (t : Fin cfg1.N) (k : Fin 64) :
    (iblk1 V c 5 t : Vec Ideal S1x64 .f32) (ix2 (0 : Fin 1) k) = (V c main_v28 : S1x64.Idx → EReal) (ix2 (0 : Fin 1) k) := by
  obtain ⟨-, -, -, -, -, -, -, -, -, -, e0, e1, -⟩ := idx_facts t
  show V c main_v28 (((cfg1.win 5).blk t).view.emb (ix2 (0 : Fin 1) k)) = V c main_v28 (ix2 (0 : Fin 1) k)
  refine congrArg _ (funext fun a => Fin.ext ?_)
  match a with
  | ⟨0, _⟩ => show win1_5.index t (0 : Fin 2) * 1 + 1 * 0 = 0; rw [e0]
  | ⟨1, _⟩ => show win1_5.index t (1 : Fin 2) * 64 + 1 * k.val = k.val; rw [e1]; omega

/-- The whole result: the layer, not clipped, of the arrays the call finds, the two biases read off their one row. -/
def G (c : Dev nD) : S100000x64.Idx → EReal :=
  layerLin (V c main_v16) (V c main_v26) (V c main_arg7) (fun k => (V c main_v27 : S1x64.Idx → EReal) (ix2 (0 : Fin 1) k))
    (V c main_arg9) (fun k => (V c main_v28 : S1x64.Idx → EReal) (ix2 (0 : Fin 1) k))

/-- What point `t` writes back is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  refine (Block.pay1_apply _ _ _ _ _ _ p q).trans ?_
  obtain ⟨-, -, -, -, -, -, -, -, -, -, -, -, e0, e1⟩ := idx_facts t
  have e6 : ((cfg1.win 6).blk t).view.emb (ix2 p q) = ix2 (row t p) q := funext fun a => Fin.ext (by
    match a with
    | ⟨0, _⟩ => show win1_6.index t (0 : Fin 2) * 5000 + 1 * p.val = 5000 * t.val + p.val; rw [e0]; omega
    | ⟨1, _⟩ => show win1_6.index t (1 : Fin 2) * 64 + 1 * q.val = q.val; rw [e1]; omega)
  show _ = G V c (((cfg1.win 6).blk t).view.emb (ix2 p q))
  rw [e6]
  simp only [blk0, blk1, blk2, blk3, blk4, blk5]
  rfl

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every row lies in the block of the point `row / 5000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_6 _, ?_⟩
  rw [mem_blk]
  obtain ⟨-, -, -, -, -, -, -, -, -, -, -, -, e0, e1⟩ := idx_facts ⟨(i 0).val / 5000, by rw [hN]; omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 64 ≤ (i 1).val ∧ (i 1).val < win1_6.index _ (1 : Fin 2) * 64 + 64
    rw [e1]; omega

/-- So after the call the result array holds `G`. -/
theorem final (c : Dev nD) : (dat1 V c).arrAt 6 cfg1.N = G V c :=
  (dat1 V c).arrAt_eq_of_cover 6 (G V c) (fun t _ => flushed_eq V c t) (cover)

end Cert.Gin.Region1

end
-- ==== Proof.Run.lean ====
/-
  The kernel's program run from the launch to the return, with its two result arrays named.

  The program is five stretches: host operations, the first call, host operations, the second call, host
  operations. Every weakly fair execution runs through them in order, and every buffer that outlives a call ends
  at the contents the five stretches, folded from the launch memory, leave in it. The two results are read off
  that fold; the eleven argument arrays are written by nothing and end as launched.
-/
import proofs.«158020_j44925357916335_1_alg».proof.Proof.Gen.KernelIdeal.Frame

set_option maxRecDepth 16384

noncomputable section

namespace Cert.Gin.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the pooled result and the node result
    end at what the fold of the five stretches leaves in their buffers, the arguments as launched. -/
theorem run_named : θ_run defs (onTc (τ := τ) (main (F := F))) ⟨m, fun _ => 0, ρ⟩ (fun r => ∀ c : Dev nD,
      r.2.mem ((c.tc : Thread nD τ).loc main_v32) = W5 m ρ c (Proc.devRef .tc main_v32)
      ∧       r.2.mem ((c.tc : Thread nD τ).loc main_v29) = W5 m ρ c (Proc.devRef .tc main_v29)
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       h c _ (mem_uc main_v29 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.Gin.Run

end
-- ==== Proof.Fold2.lean ====
/-
  The buffers from the second stretch of host operations to the return, and the kernel's run with its results read.

  Between the calls the host forms the neighbour sum of the first layer's result along the same edges and reshapes
  the second layer's two bias vectors into rows; the second call leaves the second layer in its result array; the
  last stretch adds that array's rows up graph by graph. Read back through the first call to the launch memory,
  the node result is the network's node output and the pooled result its pooled output.
-/
import proofs.«158020_j44925357916335_1_alg».proof.Proof.Fold1
import proofs.«158020_j44925357916335_1_alg».proof.Proof.Region1
import proofs.«158020_j44925357916335_1_alg».proof.Proof.Run

noncomputable section

namespace Cert.Gin.Fold

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## After the second stretch of host operations -/

/-- The second call's first operand is the first call's result: the hidden nodes. -/
theorem V3_hidden (c : Dev nD) :
    (V3 m ρ c main_v16 : FVec Ideal S100000x64 .f32)
      = hiddenNodes (m ((c : Thread nD τ).loc main_arg0)) (m ((c : Thread nD τ).loc main_arg1))
          (m ((c : Thread nD τ).loc main_arg3)) (m ((c : Thread nD τ).loc main_arg4)) (m ((c : Thread nD τ).loc main_arg5)) (m ((c : Thread nD τ).loc main_arg6)) := by
  have h : V3 m ρ c main_v16 = W2 m ρ c (Proc.devRef .tc main_v16) := by
    dsimp only [V3, W3, hostOps1]; after_results <;> rfl
  rw [h]; exact W2_hidden m ρ c

/-- Its second operand is the neighbour sum of the hidden nodes along the same edges. -/
theorem V3_agg (c : Dev nD) :
    (V3 m ρ c main_v26 : FVec Ideal S100000x64 .f32)
      = neighbourSum (hiddenNodes (m ((c : Thread nD τ).loc main_arg0)) (m ((c : Thread nD τ).loc main_arg1))
          (m ((c : Thread nD τ).loc main_arg3)) (m ((c : Thread nD τ).loc main_arg4)) (m ((c : Thread nD τ).loc main_arg5)) (m ((c : Thread nD τ).loc main_arg6)))
          (srcRow (m ((c : Thread nD τ).loc main_arg1))) (dstRow (m ((c : Thread nD τ).loc main_arg1))) := by
  have h : (V3 m ρ c main_v26 : FVec Ideal S100000x64 .f32)
      = neighbourSum (W2 m ρ c (Proc.devRef .tc main_v16)) (W2 m ρ c (Proc.devRef .tc main_v1))
          (W2 m ρ c (Proc.devRef .tc main_v3)) := by
    dsimp only [V3, W3, hostOps1]; after_results <;> rfl
  rw [h, W2_hidden, W2_src, W2_dst]

theorem V3_arg7 (c : Dev nD) : V3 m ρ c main_arg7 = m ((c : Thread nD τ).loc main_arg7) := by
  have h : V3 m ρ c main_arg7 = W2 m ρ c (Proc.devRef .tc main_arg7) := by
    dsimp only [V3, W3, hostOps1]; after_results <;> rfl
  rw [h]; exact W2_arg7 m ρ c
theorem V3_arg9 (c : Dev nD) : V3 m ρ c main_arg9 = m ((c : Thread nD τ).loc main_arg9) := by
  have h : V3 m ρ c main_arg9 = W2 m ρ c (Proc.devRef .tc main_arg9) := by
    dsimp only [V3, W3, hostOps1]; after_results <;> rfl
  rw [h]; exact W2_arg9 m ρ c
/-- The third bias vector as a row. -/
theorem V3_b2a (c : Dev nD) :
    (V3 m ρ c main_v27 : FVec Ideal S1x64 .f32) = shapeCast S1x64 (m ((c : Thread nD τ).loc main_arg8)) shapeCasts_S64_S1x64 := by
  have h : (V3 m ρ c main_v27 : FVec Ideal S1x64 .f32)
      = shapeCast S1x64 (W2 m ρ c (Proc.devRef .tc main_arg8)) shapeCasts_S64_S1x64 := by
    dsimp only [V3, W3, hostOps1]; after_results <;> rfl
  rw [h, W2_arg8]
/-- The fourth bias vector as a row. -/
theorem V3_b2b (c : Dev nD) :
    (V3 m ρ c main_v28 : FVec Ideal S1x64 .f32) = shapeCast S1x64 (m ((c : Thread nD τ).loc main_arg10)) shapeCasts_S64_S1x64 := by
  have h : (V3 m ρ c main_v28 : FVec Ideal S1x64 .f32)
      = shapeCast S1x64 (W2 m ρ c (Proc.devRef .tc main_arg10)) shapeCasts_S64_S1x64 := by
    dsimp only [V3, W3, hostOps1]; after_results <;> rfl
  rw [h, W2_arg10]
theorem W3_arg2 (c : Dev nD) : W3 m ρ c (Proc.devRef .tc main_arg2) = m ((c : Thread nD τ).loc main_arg2) := by
  have h : W3 m ρ c (Proc.devRef .tc main_arg2) = W2 m ρ c (Proc.devRef .tc main_arg2) := by
    dsimp only [V3, W3, hostOps1]; after_results <;> rfl
  rw [h]; exact W2_arg2 m ρ c

/-! ## After the second call -/

/-- The second call's result array holds the network's node output. -/
theorem W4_node (c : Dev nD) :
    (W4 m ρ c (Proc.devRef .tc main_v29) : FVec Ideal S100000x64 .f32)
      = nodeOut (m ((c : Thread nD τ).loc main_arg0)) (m ((c : Thread nD τ).loc main_arg1))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  refine (W4_arr m ρ c 6).trans ((Region1.final (V3 m ρ) c).trans ?_)
  unfold Region1.G nodeOut
  rw [V3_hidden, V3_agg, V3_arg7, V3_b2a, V3_arg9, V3_b2b, bias_row, bias_row]

theorem W4_arg2 (c : Dev nD) : W4 m ρ c (Proc.devRef .tc main_arg2) = m ((c : Thread nD τ).loc main_arg2) :=
  (W4_of_ne m ρ c main_arg2 (by decide)).trans (W3_arg2 m ρ c)

/-! ## After the last stretch of host operations -/

/-- The node result at the return. -/
theorem W5_node (c : Dev nD) :
    (W5 m ρ c (Proc.devRef .tc main_v29) : FVec Ideal S100000x64 .f32)
      = nodeOut (m ((c : Thread nD τ).loc main_arg0)) (m ((c : Thread nD τ).loc main_arg1))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  have h : W5 m ρ c (Proc.devRef .tc main_v29) = W4 m ρ c (Proc.devRef .tc main_v29) := by
    dsimp only [W5, hostOps2]; after_results <;> rfl
  rw [h]; exact W4_node m ρ c

/-- The pooled result at the return. -/
theorem W5_pool (c : Dev nD) :
    (W5 m ρ c (Proc.devRef .tc main_v32) : FVec Ideal S256x64 .f32)
      = poolOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  have h : (W5 m ρ c (Proc.devRef .tc main_v32) : FVec Ideal S256x64 .f32)
      = pooled (W4 m ρ c (Proc.devRef .tc main_v29)) (W4 m ρ c (Proc.devRef .tc main_arg2)) := by
    dsimp only [W5, hostOps2]; after_results <;> rfl
  rw [h, W4_node, W4_arg2]
  rfl

/-! ## The run, read -/

/-- Every weakly fair execution of the kernel's program terminates without a fault, with the pooled result at the
    network's pooled output, the node result at its node output, and the arguments as launched. -/
theorem run : θ_run defs (onTc (τ := τ) (main (F := Ideal))) ⟨m, fun _ => 0, ρ⟩ (fun r => ∀ c : Dev nD,
      r.2.mem ((c.tc : Thread nD τ).loc main_v32) = poolOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
      ∧ r.2.mem ((c.tc : Thread nD τ).loc main_v29) = nodeOut (m ((c : Thread nD τ).loc main_arg0)) (m ((c : Thread nD τ).loc main_arg1))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W5_pool m ρ c), (h c).2.1.trans (W5_node m ρ c), (h c).2.2⟩)
    (Run.run_named m ρ)

end Cert.Gin.Fold

end
-- ==== Proof.RefLayer.lean ====
/-
  The reference computes the network.

  Its layer is spelt with whole-array operations: a sum of two arrays, a product with a 64×64 matrix, a bias
  vector broadcast first to one row and then to every row, a maximum with a zero array, and the same again. Read
  at row `p` and column `q` each of these is the textbook expression, so the whole-array spelling is the layer of
  the specification, and the reference's two results are the network's node output and pooled output.
-/
import proofs.«158020_j44925357916335_1_alg».proof.Proof.Gen.ReferenceIdeal.Read
import proofs.«158020_j44925357916335_1_alg».proof.Proof.Network
import proofs.«158020_j44925357916335_1_alg».proof.Proof.LibPlainDot
import Idealize.ShloMosaic.Lib.Pipeline.Value

noncomputable section

namespace Cert.Gin.Ref

open Cert.ReferenceIdeal Cert.ReferenceIdeal.Gen Cert.ReferenceIdeal.Read
open Idealize.ShloMosaic Idealize.ShloMosaic.TcCoe Idealize.SL.Sem Idealize.ShloMosaic.ValueIdx

/-- The host's 100000×64 by 64×64 product at row `p` and column `q` is `∑ k, l p k · r k q`. -/
theorem dot_apply (l : FVec Ideal S100000x64 .f32) (r : FVec Ideal S64x64 .f32) (p : Fin 100000) (q : Fin 64) :
    Host.dotGeneral dot_S100000x64_S64x64_S100000x64_1_0_0_1_n_n none l r (ix2 p q)
      = ∑ k : Fin 64, l (ix2 p k) * r (ix2 k q) := by
  refine (Ideal.dotGeneral_apply dot_S100000x64_S64x64_S100000x64_1_0_0_1_n_n none .single l r (ix2 p q)).trans ?_
  exact Cert.PlainDot.sum_eq dot_S100000x64_S64x64_S100000x64_1_0_0_1_n_n rfl rfl
    (fun j q => lhs_main_v15_0 j q) (fun j q => lhs_main_v15_1 j q) (fun j q => rhs_main_v15_0 j q)
    (fun j q => rhs_main_v15_1 j q) l r (ix2 p q)

/-- A bias vector broadcast to one row and then to every row. -/
def bcastBias (b : FVec Ideal S64 .f32) : FVec Ideal S100000x64 .f32 :=
  broadcastInDim S100000x64 ![0, 1] bcast_S1x64_S100000x64_0_1 (broadcastInDim S1x64 ![1] bcast_S64_S1x64_1 b)

/-- It reads, at `(p, q)`, the vector at `q`. -/
theorem bias_apply (b : FVec Ideal S64 .f32) (p : Fin 100000) (q : Fin 64) : bcastBias b (ix2 p q) = b (ix1 q) := by
  unfold bcastBias
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The zero array. -/
def zeros : FVec Ideal S100000x64 .f32 :=
  broadcastInDim S100000x64 ![] bcast_S_S100000x64 (constant S_ .f32 0x00000000#32)

/-- It reads the zero word everywhere. -/
theorem zero_apply (i : S100000x64.Idx) : zeros i = zw :=
  broadcastInDim_apply _ bcast_S_S100000x64 (constant (F := Ideal) S_ .f32 0x00000000#32) i ix0 (fun a => a.elim0)

/-- The layer without a final clip, in the reference's whole-array spelling. -/
def hostLin (h agg : FVec Ideal S100000x64 .f32) (Wa : FVec Ideal S64x64 .f32) (ba : FVec Ideal S64 .f32)
    (Wb : FVec Ideal S64x64 .f32) (bb : FVec Ideal S64 .f32) : FVec Ideal S100000x64 .f32 :=
  addf (Host.dotGeneral dot_S100000x64_S64x64_S100000x64_1_0_0_1_n_n none
      (maximumf (addf (Host.dotGeneral dot_S100000x64_S64x64_S100000x64_1_0_0_1_n_n none (addf h agg) Wa) (bcastBias ba))
        zeros) Wb)
    (bcastBias bb)

/-- The reference's clip: a maximum with the zero array. -/
def hostRelu (y : FVec Ideal S100000x64 .f32) : FVec Ideal S100000x64 .f32 :=
  maximumf y zeros

/-- The whole-array spelling is the specification's layer. -/
theorem hostLin_eq (h agg : FVec Ideal S100000x64 .f32) (Wa : FVec Ideal S64x64 .f32) (ba : FVec Ideal S64 .f32)
    (Wb : FVec Ideal S64x64 .f32) (bb : FVec Ideal S64 .f32) :
    hostLin h agg Wa ba Wb bb = layerLin h agg Wa (biasOf ba) Wb (biasOf bb) := by
  funext i
  obtain ⟨p, q, rfl⟩ : ∃ (p : Fin 100000) (q : Fin 64), i = ix2 p q := ⟨i 0, i 1, eq_ix2 i⟩
  unfold hostLin layerLin lin hidden
  simp only [addf_apply, maximumf_apply, dot_apply, bias_apply, zero_apply]

/-- … and clipped, the specification's clipped layer. -/
theorem hostRelu_hostLin_eq (h agg : FVec Ideal S100000x64 .f32) (Wa : FVec Ideal S64x64 .f32) (ba : FVec Ideal S64 .f32)
    (Wb : FVec Ideal S64x64 .f32) (bb : FVec Ideal S64 .f32) :
    hostRelu (hostLin h agg Wa ba Wb bb) = layerRelu h agg Wa (biasOf ba) Wb (biasOf bb) := by
  funext i
  unfold hostRelu
  rw [maximumf_apply, zero_apply, hostLin_eq]
  rfl

/-- The reference's neighbour sum of the node features is the specification's. -/
theorem v13_eq (x0 : FVec Ideal S100000x64 .f32) (x1 : IVec S2x1200000 32) :
    val_main_v13 (F := Ideal) x0 x1 = neighbourSum x0 (srcRow x1) (dstRow x1) := rfl

/-- The reference's first layer is the specification's. -/
theorem v24_eq (x0 : FVec Ideal S100000x64 .f32) (x1 : IVec S2x1200000 32) (x3 : FVec Ideal S64x64 .f32)
    (x4 : FVec Ideal S64 .f32) (x5 : FVec Ideal S64x64 .f32) (x6 : FVec Ideal S64 .f32) :
    val_main_v24 (F := Ideal) x0 x1 x3 x4 x5 x6 = hiddenNodes x0 x1 x3 x4 x5 x6 := by
  have h : val_main_v24 (F := Ideal) x0 x1 x3 x4 x5 x6 = hostRelu (hostLin x0 (val_main_v13 (F := Ideal) x0 x1) x3 x4 x5 x6) := rfl
  rw [h, hostRelu_hostLin_eq, v13_eq]
  rfl

/-- The reference's node result is the network's node output. -/
theorem v44_eq (x0 : FVec Ideal S100000x64 .f32) (x1 : IVec S2x1200000 32) (x3 : FVec Ideal S64x64 .f32)
    (x4 : FVec Ideal S64 .f32) (x5 : FVec Ideal S64x64 .f32) (x6 : FVec Ideal S64 .f32) (x7 : FVec Ideal S64x64 .f32)
    (x8 : FVec Ideal S64 .f32) (x9 : FVec Ideal S64x64 .f32) (x10 : FVec Ideal S64 .f32) :
    val_main_v44 (F := Ideal) x0 x1 x3 x4 x5 x6 x7 x8 x9 x10 = nodeOut x0 x1 x3 x4 x5 x6 x7 x8 x9 x10 := by
  have h : val_main_v44 (F := Ideal) x0 x1 x3 x4 x5 x6 x7 x8 x9 x10
      = hostLin (val_main_v24 (F := Ideal) x0 x1 x3 x4 x5 x6)
          (neighbourSum (val_main_v24 (F := Ideal) x0 x1 x3 x4 x5 x6) (srcRow x1) (dstRow x1)) x7 x8 x9 x10 := rfl
  rw [h, hostLin_eq, v24_eq]
  rfl

/-- The reference's pooled result is the network's pooled output. -/
theorem v47_eq (x0 : FVec Ideal S100000x64 .f32) (x1 : IVec S2x1200000 32) (x2 : IVec S100000 32) (x3 : FVec Ideal S64x64 .f32)
    (x4 : FVec Ideal S64 .f32) (x5 : FVec Ideal S64x64 .f32) (x6 : FVec Ideal S64 .f32) (x7 : FVec Ideal S64x64 .f32)
    (x8 : FVec Ideal S64 .f32) (x9 : FVec Ideal S64x64 .f32) (x10 : FVec Ideal S64 .f32) :
    val_main_v47 (F := Ideal) x0 x1 x2 x3 x4 x5 x6 x7 x8 x9 x10 = poolOut x0 x1 x2 x3 x4 x5 x6 x7 x8 x9 x10 := by
  have h : val_main_v47 (F := Ideal) x0 x1 x2 x3 x4 x5 x6 x7 x8 x9 x10
      = pooled (val_main_v44 (F := Ideal) x0 x1 x3 x4 x5 x6 x7 x8 x9 x10) x2 := rfl
  rw [h, v44_eq]
  rfl

end Cert.Gin.Ref

end
-- ==== Proof.lean ====
/-
  A two-layer graph-isomorphism network, computed once with two fused kernel calls and once with whole-array
  operations, gives the same two results on the extended reals.

  Both programs cut the edge table into sources and destinations, form each layer's neighbour sum with the same
  gather and scatter-add, and pool the last layer's rows with the same scatter-add; those three sums are carried as
  named operations and never opened. What differs is the dense part of a layer. The kernel program runs it on 20
  blocks of 5000 nodes, each block a sum, a product with a 64×64 matrix into a zero accumulator (its operands
  rounded to a shorter float format first, which is the identity here), a bias row added to every row, a clip below
  at zero, a second product and bias, and in the first layer a second clip. The reference writes the same on whole
  arrays, its biases broadcast through a one-row array. Element by element both are
      ∑ k, max (∑ j, (h r j + agg r j) · Wa j k + ba k) 0 · Wb k q + bb q,
  clipped once more in the first layer: no law of arithmetic is needed beyond reading a product as its sum, so the
  precondition is never opened. The blocks of each call are restrictions of that one function and cover every row.

  The three frames are the generated ones (the reference's is its generated run with the results dropped), and the
  idealization rewrote nothing.
-/
import proofs.«158020_j44925357916335_1_alg».proof.Defs
import proofs.«158020_j44925357916335_1_alg».proof.Proof.Gen.Kernel
import proofs.«158020_j44925357916335_1_alg».proof.Proof.Gen.Kernel.Frame
import proofs.«158020_j44925357916335_1_alg».proof.Proof.Gen.KernelIdeal
import proofs.«158020_j44925357916335_1_alg».proof.Proof.Gen.KernelIdeal.Frame
import proofs.«158020_j44925357916335_1_alg».proof.Proof.Gen.ReferenceIdeal
import proofs.«158020_j44925357916335_1_alg».proof.Proof.Gen.ReferenceIdeal.Run
import proofs.«158020_j44925357916335_1_alg».proof.Proof.Gen.ReferenceIdeal.Read
import proofs.«158020_j44925357916335_1_alg».proof.Proof.Gen.Pre_finite_inputs
import proofs.«158020_j44925357916335_1_alg».proof.Proof.Fold2
import proofs.«158020_j44925357916335_1_alg».proof.Proof.RefLayer

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eleven arguments both programs end with the pooled result at the network's
    pooled output and the node result at its node output. -/
theorem algebraic : Cert.algebraic_KernelIdeal_ReferenceIdeal := by
  intro m ρ m' ρ' _ hagree
  refine ⟨fun c => Cert.Gin.poolOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Gin.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.Gin.Fold.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v47_eq, Cert.Gin.Ref.v47_eq, a0, a1, a2, a3, a4, a5, a6, a7, a8, a9, a10]
  · rw [Cert.ReferenceIdeal.Read.val_main_v44_eq, Cert.Gin.Ref.v44_eq, a0, a1, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
